-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : IVec S1600000 32) (main_arg6 : IVec S1600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 27
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S50000x128, .f32⟩
  | .hbm, ⟨18, _⟩ => ⟨S1600000x1, .i32⟩
  | .hbm, ⟨19, _⟩ => ⟨S50000x128, .f32⟩
  | .hbm, ⟨20, _⟩ => ⟨S128x128, .f32⟩
  | .hbm, ⟨21, _⟩ => ⟨S128x128, .bf16⟩
  | .hbm, ⟨22, _⟩ => ⟨S128x128, .f32⟩
  | .hbm, ⟨23, _⟩ => ⟨S128x128, .bf16⟩
  | .hbm, ⟨24, _⟩ => ⟨S1x128, .f32⟩
  | .hbm, ⟨25, _⟩ => ⟨S1x128, .f32⟩
  | .hbm, ⟨26, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  transposes_S128x128_S128x128_1_0 : S128x128.Transposes [1, 0] S128x128
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 48
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S1600000, .i32⟩
  | .hbm, ⟨6, _⟩ => ⟨S1600000, .i32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S50000x128, .f32⟩
  | .hbm, ⟨18, _⟩ => ⟨S1600000x1, .i32⟩
  | .hbm, ⟨19, _⟩ => ⟨S50000x128, .f32⟩
  | .hbm, ⟨20, _⟩ => ⟨S128x128, .f32⟩
  | .hbm, ⟨21, _⟩ => ⟨S50000x128, .f32⟩
  | .hbm, ⟨22, _⟩ => ⟨S1x128, .f32⟩
  | .hbm, ⟨23, _⟩ => ⟨S50000x128, .f32⟩
  | .hbm, ⟨24, _⟩ => ⟨S50000x128, .f32⟩
  | .hbm, ⟨25, _⟩ => ⟨S_, .f32⟩
  | .hbm, ⟨26, _⟩ => ⟨S_, .f32⟩
  | .hbm, ⟨27, _⟩ => ⟨S50000x128, .f32⟩
  | .hbm, ⟨28, _⟩ => ⟨S50000x128, .i1⟩
  | .hbm, ⟨29, _⟩ => ⟨S_, .f32⟩
  | .hbm, ⟨30, _⟩ => ⟨S50000x128, .f32⟩
  | .hbm, ⟨31, _⟩ => ⟨S50000x128, .f32⟩
  | .hbm, ⟨32, _⟩ => ⟨S50000x128, .f32⟩
  | .hbm, ⟨33, _⟩ => ⟨S50000x128, .f32⟩
  | .hbm, ⟨34, _⟩ => ⟨S128x128, .f32⟩
  | .hbm, ⟨35, _⟩ => ⟨S50000x128, .f32⟩
  | .hbm, ⟨36, _⟩ => ⟨S1x128, .f32⟩
  | .hbm, ⟨37, _⟩ => ⟨S50000x128, .f32⟩
  | .hbm, ⟨38, _⟩ => ⟨S50000x128, .f32⟩
  | .hbm, ⟨39, _⟩ => ⟨S_, .f32⟩
  | .hbm, ⟨40, _⟩ => ⟨S_, .f32⟩
  | .hbm, ⟨41, _⟩ => ⟨S50000x128, .f32⟩
  | .hbm, ⟨42, _⟩ => ⟨S50000x128, .i1⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_call0_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_call1_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v22 : Ref sig .tc := ⟨.hbm, 46, rfl⟩
abbrev main_v23 : Ref sig .tc := ⟨.hbm, 47, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Spec.lean ====
/-
  One entry of the layer, on the extended reals.

  For a node, let `h` be its row of neighbourhood sums and `x` its own row of features (128 entries each).  For an
  output column, let `w1`, `w2` be that column's rows of the two weight matrices and `b1`, `b2` its two bias
  entries.  The entry of the result at that node and column is

      leaky (Σₖ h k · w1 k + b1) + leaky (Σₖ (x k · h k) · w2 k + b2),

  where `leaky s` is `s` when `s ≥ 0` and `c · s` otherwise, `c` the single-precision number written 0.01 (kept as
  its word: both programs use the same word, so its value is never needed, and neither is that of the zero word the
  comparison is made against).  `entryAt` reads the rows and columns off whole arrays.
-/
import Idealize.ShloMosaic.Lib.ValueIdx
import Idealize.ShloMosaic.PureOps.Ideal

noncomputable section

open scoped BigOperators

namespace Cert.NodeLayer

open Idealize.ShloMosaic Idealize.ShloMosaic.ValueIdx

/-- The leaky unit at one extended real. -/
def leakyS (s : EReal) : EReal :=
  Scalar.select (Ideal.cmp .oge s (Ideal.ofBits .f32 0x00000000#32)) s (Ideal.ofBits .f32 0x3C23D70A#32 * s)

/-- One entry of the result from the node's two rows, the column's two weight rows and its two bias entries. -/
def entry (h x w1 w2 : Fin 128 → EReal) (b1 b2 : EReal) : EReal :=
  leakyS (∑ k : Fin 128, h k * w1 k + b1) + leakyS (∑ k : Fin 128, (x k * h k) * w2 k + b2)

/-- The entry at node `r` and column `q`, read off the whole arrays: the neighbourhood sums `H`, the features `xe`,
    the weights `W1`, `W2` (row `q` of each: the products are with the transposes) and the biases. -/
def entryAt (H xe : FVec Ideal ⟨2, ![50000, 128]⟩ .f32) (W1 : FVec Ideal ⟨2, ![128, 128]⟩ .f32)
    (b1 : FVec Ideal ⟨1, ![128]⟩ .f32) (W2 : FVec Ideal ⟨2, ![128, 128]⟩ .f32) (b2 : FVec Ideal ⟨1, ![128]⟩ .f32)
    (r : Fin 50000) (q : Fin 128) : EReal :=
  entry (fun k => H (ix2 r k)) (fun k => xe (ix2 r k)) (fun k => W1 (ix2 q k)) (fun k => W2 (ix2 q k))
    (b1 (ix1 q)) (b2 (ix1 q))

end Cert.NodeLayer

end
-- ==== Proof.LibSoftplus.lean ====
/-
  Softplus and a plain matrix product read at one entry, at the ideal values (extended reals, every operation exact).

  `sp x = max x 0 + log (1 + e^(-|x|))` is the numerically stable softplus, total on the extended reals. jax's
  `logaddexp x 0` computes it behind a test `d ≠ d` of the difference `d = x - 0`, which no extended real passes, so the
  guarded branch is never taken. `softplus_vector_apply` reads the vector form (the exponent written `0 - |d|`) at an index,
  `softplus_host_apply` the host form (the exponent written as a negation, the zero splat printed three times); both are `sp` of the operand's entry.
  `matmul0_plain_apply`: an [R, K] by [K, N] product accumulated into a zero splat, read at the entry (p, j), is the sum
  over the contracted coordinate of the products — whatever formats the two operands are stored in, since a format
  change is the identity here. `sum_fin256_split`: a sum over 256 coordinates as the sums over its first 64, next 128
  and last 64 coordinates.
-/
import Idealize.ShloMosaic.Lib.ValueIdx
import Idealize.ShloMosaic.Lib.StackMember
import Idealize.ShloMosaic.Lib.KernelVsHost
import Idealize.ShloMosaic.PureOps.Ideal.Laws

noncomputable section

open scoped BigOperators

namespace Cert.Lib.Softplus

open Idealize.ShloMosaic Idealize.ShloMosaic.ValueIdx Idealize.ShloMosaic.StackMember

/-- The stable softplus on the extended reals: `max x 0 + log (1 + e^(-|x|))`. -/
def sp (x : EReal) : EReal :=
  max x 0 + Ideal.log1p (Ideal.exp (-(FloatOps.absf (F := Ideal) (φ := .f32) x)))

/-- No extended real differs from itself: the ordered "not equal" test of a value against itself fails. -/
theorem cmp_one_self (x : EReal) : Ideal.cmp .one x x = 0#1 := by simp [Ideal.cmp]

/-- The unordered "not equal" test of a value against itself fails too (nothing is unordered here). -/
theorem cmp_une_self (x : EReal) : Ideal.cmp .une x x = 0#1 := by simp [Ideal.cmp]

/-- The zero word of f32 is the real zero. -/
theorem zero_word : (FloatOps.ofBits (F := Ideal) .f32 0x00000000#32 : Ideal .f32) = 0 := Ideal.ofBits_zero_f32

/-- The vector form of `logaddexp v 0` (a splat `c` of zero; the exponent as `0 - |v - 0|`), read at an index. -/
theorem softplus_vector_apply {s : Shape} (c : Ideal .f32) (hc : c = 0) (v : FVec Ideal s .f32) (i : s.Idx) :
    select (cmpf .one (subf v (broadcast s c)) (subf v (broadcast s c)))
      (addf v (broadcast s c))
      (addf (maximumf v (broadcast s c))
        (log1p (exp (subf (broadcast s c) (absf (subf v (broadcast s c))))))) i
    = sp (v i) := by
  subst hc
  show Scalar.select (Ideal.cmp .one (v i - 0) (v i - 0)) (v i + 0)
      (max (v i) 0 + Ideal.log1p (Ideal.exp (0 - FloatOps.absf (F := Ideal) (φ := .f32) (v i - 0)))) = _
  rw [sub_zero, zero_sub, cmp_one_self, select_zero]
  rfl

/-- The host form of `logaddexp v 0` (the three splats of zero it prints as any arrays that are zero everywhere; the
    exponent as the negation of `|v - 0|`), read at an index. -/
theorem softplus_host_apply {s : Shape} (v z0 z1 z2 : FVec Ideal s .f32)
    (h0 : ∀ i, z0 i = 0) (h1 : ∀ i, z1 i = 0) (h2 : ∀ i, z2 i = 0) (i : s.Idx) :
    select (cmpf .une (subf v z1) (subf v z1)) (addf v z2)
      (addf (maximumf v z0) (Host.log1p (Host.exp (Host.negf (Host.absf (subf v z1)))))) i
    = sp (v i) := by
  show Scalar.select (Ideal.cmp .une (v i - z1 i) (v i - z1 i)) (v i + z2 i)
      (max (v i) (z0 i) + Ideal.log1p (Ideal.exp (-(FloatOps.absf (F := Ideal) (φ := .f32) (v i - z1 i))))) = _
  rw [h0, h1, h2, sub_zero, cmp_une_self, select_zero]
  rfl

/-- A plain [R, K] by [K, N] product into a zero accumulator, read at (p, j), whatever the operands' formats. The
    dimension numbers are any record equal to the plain ones. -/
theorem matmul0_plain_apply {R K N : Nat} {φ₁ φ₂ : FTy} (D : DotDims ⟨2, ![R, K]⟩ ⟨2, ![K, N]⟩ ⟨2, ![R, N]⟩)
    (hD : D = DotDims.plain R K N) (prec : Option ContractPrecision)
    (h : FVec Ideal ⟨2, ![R, K]⟩ φ₁) (w : FVec Ideal ⟨2, ![K, N]⟩ φ₂) (p : Fin R) (j : Fin N) :
    matmul D prec h w (constant ⟨2, ![R, N]⟩ .f32 0x00000000#32) (ix2 p j) = ∑ k : Fin K, h (ix2 p k) * w (ix2 k j) := by
  subst hD
  exact (congrFun (matmul_zero_eq_dotGeneral _ prec h w) _).trans (dotGeneral_plain_apply prec h w p j)

/-- A sum over 256 coordinates, split where a 64-, a 128- and a 64-wide piece were joined. -/
theorem sum_fin256_split {M : Type*} [AddCommMonoid M] (f : Fin 256 → M) :
    ∑ q : Fin 256, f q
      = (∑ k : Fin 64, f ⟨k.val, by omega⟩ + ∑ k : Fin 128, f ⟨64 + k.val, by omega⟩) + ∑ k : Fin 64, f ⟨192 + k.val, by omega⟩ := by
  have e : ∑ q : Fin 256, f q = ∑ q : Fin (64 + 128 + 64), f q := rfl
  rw [e, Fin.sum_univ_add, Fin.sum_univ_add]
  rfl

end Cert.Lib.Softplus

end
-- ==== Proof.KernelEntry.lean ====
/-
  The kernel body's stored value at one entry of its block.

  The body loads a 5000-row block of the features and of the neighbourhood sums, the two transposed weight matrices
  and the two bias rows, and stores, for row `p` and column `q` of the block, the layer's entry of that row: the
  two matrix products run over the 128 columns of row `p` only, so nothing of the other rows enters.  The roundings
  to half precision on the way into the products change nothing at the ideal values.
-/
import proofs.«123644_j12524124636045_2_alg».proof.Proof.Gen.KernelIdeal.Skeleton
import proofs.«123644_j12524124636045_2_alg».proof.Proof.Spec
import proofs.«123644_j12524124636045_2_alg».proof.Proof.LibSoftplus
import Idealize.ShloMosaic.Lib.ValueLayout
import Idealize.ShloMosaic.Lib.Pipeline.Value

noncomputable section

open scoped BigOperators

namespace Cert.KernelIdeal.Entry

open Cert.KernelIdeal Cert.KernelIdeal.Gen Idealize.ShloMosaic Idealize.ShloMosaic.ValueIdx Cert.NodeLayer

/-- The vector form of the leaky unit, read at an index. -/
theorem leaky_apply {s : Shape} (v : FVec Ideal s .f32) (i : s.Idx) :
    select (cmpf .oge v (broadcast s (Scalar.ofBits (F := Ideal) .f32 0x00000000#32))) v
      (mulf (broadcast s (Scalar.ofBits (F := Ideal) .f32 0x3C23D70A#32)) v) i = leakyS (v i) := rfl

/-- The body's stored value at row `p`, column `q` of its block is the layer's entry of the loaded rows. -/
theorem pay_apply (x0 x1 : Vec Ideal S5000x128 .f32) (x2 x4 : Vec Ideal S128x128 .bf16) (x3 x5 : Vec Ideal S1x128 .f32)
    (p : Fin 5000) (q : Fin 128) :
    k0_pay1 (F := Ideal) x0 x1 x2 x4 x3 x5 (ix2 p q)
      = entry (fun k => x1 (ix2 p k)) (fun k => x0 (ix2 p k)) (fun k => x2 (ix2 k q)) (fun k => x4 (ix2 k q))
          (x3 (ix2 (0 : Fin 1) q)) (x5 (ix2 (0 : Fin 1) q)) := by
  unfold k0_pay1 entry
  dsimp only
  rw [addf_apply, leaky_apply, leaky_apply, addf_apply, addf_apply, broadcastTo_1b_ab_apply, broadcastTo_1b_ab_apply,
    Cert.Lib.Softplus.matmul0_plain_apply dot_S5000x128_S128x128_S5000x128_1_0_0_1_n_n rfl,
    Cert.Lib.Softplus.matmul0_plain_apply dot_S5000x128_S128x128_S5000x128_1_0_0_1_n_n rfl]
  simp only [shapeCast_self, truncf_apply, mulf_apply]

/-- The same at any index `y` of the block, with the rows, columns and bias entries the body reads there named by
    hypotheses: what a block read of the whole arrays supplies. -/
theorem pay_at (x0 x1 : Vec Ideal S5000x128 .f32) (x2 x4 : Vec Ideal S128x128 .bf16) (x3 x5 : Vec Ideal S1x128 .f32)
    (h x w1 w2 : Fin 128 → EReal) (b1 b2 : EReal) (y : S5000x128.Idx)
    (hh : ∀ k : Fin 128, x1 (ix2 (y 0) k) = h k) (hx : ∀ k : Fin 128, x0 (ix2 (y 0) k) = x k)
    (hw1 : ∀ k : Fin 128, x2 (ix2 k (y 1)) = w1 k) (hw2 : ∀ k : Fin 128, x4 (ix2 k (y 1)) = w2 k)
    (hb1 : x3 (ix2 (0 : Fin 1) (y 1)) = b1) (hb2 : x5 (ix2 (0 : Fin 1) (y 1)) = b2) :
    k0_pay1 (F := Ideal) x0 x1 x2 x4 x3 x5 y = entry h x w1 w2 b1 b2 := by
  obtain ⟨p, q, rfl⟩ : ∃ (p : Fin 5000) (q : Fin 128), y = ix2 p q := ⟨y 0, y 1, eq_ix2 y⟩
  have e1 : (fun k => x1 (ix2 p k)) = h := funext hh
  have e0 : (fun k => x0 (ix2 p k)) = x := funext hx
  have e2 : (fun k => x2 (ix2 k q)) = w1 := funext hw1
  have e4 : (fun k => x4 (ix2 k q)) = w2 := funext hw2
  have e3 : x3 (ix2 (0 : Fin 1) q) = b1 := hb1
  have e5 : x5 (ix2 (0 : Fin 1) q) = b2 := hb2
  rw [pay_apply, e1, e0, e2, e4, e3, e5]

end Cert.KernelIdeal.Entry

end
-- ==== Proof.RefTerm.lean ====
/-
  The reference's result as one function of its argument arrays.

  From the node features `xe : [50000,128]` and the edge lists `src, dst : [1600000]` the reference first
  forms the neighbourhood sums `agg xe src dst`: row `v` is the sum of the rows `xe[src e]` over the edges `e`
  with `dst e = v` (a negative source index is first moved up by 50000; the rows are gathered and then
  scatter-added into a zero array).  With `H := agg xe src dst` the result is

      leaky (H · W1ᵀ + b1) + leaky ((xe ∘ H) · W2ᵀ + b2),

  where `·` is the matrix product, `∘` the entrywise product, the bias rows are repeated down the 50000 rows and
  `leaky s` is `s` where `s ≥ 0` and `c · s` elsewhere, `c` the single-precision number written 0.01.
  These definitions only name that composition; nothing is proved here.
-/
import proofs.«123644_j12524124636045_2_alg».proof.Proof.Gen.ReferenceIdeal

noncomputable section

namespace Cert.ReferenceIdeal.RefTerm

open Cert.ReferenceIdeal Cert.ReferenceIdeal.Gen Idealize.ShloMosaic

variable {F : FTy → Type} [FloatOps F]

/-- The neighbourhood sums: the rows of `xe` at the (wrapped) source indices, added up per destination. -/
def agg (xe : (⟨S50000x128, .f32⟩ : BufTy).Contents (Elt F)) (src dst : (⟨S1600000, .i32⟩ : BufTy).Contents (Elt F)) :
    (⟨S50000x128, .f32⟩ : BufTy).Contents (Elt F) :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 dst)
    (Host.gather gather_S50000x128_S1600000x1_S1600000x128_1_0_n_n_0_1_1128 xe
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 50000#32))) src)))

/-- The leaky unit on a whole array: `s` where `s ≥ 0`, the slope times `s` elsewhere. -/
def leaky (s : (⟨S50000x128, .f32⟩ : BufTy).Contents (Elt F)) : (⟨S50000x128, .f32⟩ : BufTy).Contents (Elt F) :=
  select (cmpf .oge s (broadcastInDim S50000x128 ![] bcast_S_S50000x128 (constant S_ .f32 0x00000000#32))) s
    (mulf (broadcastInDim S50000x128 ![] bcast_S_S50000x128 (id (constant S_ .f32 0x3C23D70A#32))) s)

/-- One branch before its leaky unit: the product of `l` with the transpose of `w`, plus the bias row `b`
    repeated down the rows. -/
def affine (l : (⟨S50000x128, .f32⟩ : BufTy).Contents (Elt F)) (w : (⟨S128x128, .f32⟩ : BufTy).Contents (Elt F))
    (b : (⟨S128, .f32⟩ : BufTy).Contents (Elt F)) : (⟨S50000x128, .f32⟩ : BufTy).Contents (Elt F) :=
  addf (Host.dotGeneral dot_S50000x128_S128x128_S50000x128_1_0_0_1_n_n none l
      (transpose S128x128 [1, 0] w transposes_S128x128_S128x128_1_0))
    (broadcastInDim S50000x128 ![0, 1] bcast_S1x128_S50000x128_0_1 (broadcastInDim S1x128 ![1] bcast_S128_S1x128_1 b))

/-- The reference's result from the neighbourhood sums `h`. -/
def outOf (h xe : (⟨S50000x128, .f32⟩ : BufTy).Contents (Elt F)) (w1 : (⟨S128x128, .f32⟩ : BufTy).Contents (Elt F))
    (b1 : (⟨S128, .f32⟩ : BufTy).Contents (Elt F)) (w2 : (⟨S128x128, .f32⟩ : BufTy).Contents (Elt F))
    (b2 : (⟨S128, .f32⟩ : BufTy).Contents (Elt F)) : (⟨S50000x128, .f32⟩ : BufTy).Contents (Elt F) :=
  addf (leaky (affine h w1 b1)) (leaky (affine (mulf xe h) w2 b2))

/-- The reference's result as a function of its seven argument arrays. -/
def out (xe : (⟨S50000x128, .f32⟩ : BufTy).Contents (Elt F)) (w1 : (⟨S128x128, .f32⟩ : BufTy).Contents (Elt F))
    (b1 : (⟨S128, .f32⟩ : BufTy).Contents (Elt F)) (w2 : (⟨S128x128, .f32⟩ : BufTy).Contents (Elt F))
    (b2 : (⟨S128, .f32⟩ : BufTy).Contents (Elt F)) (src dst : (⟨S1600000, .i32⟩ : BufTy).Contents (Elt F)) :
    (⟨S50000x128, .f32⟩ : BufTy).Contents (Elt F) :=
  outOf (agg xe src dst) xe w1 b1 w2 b2

end Cert.ReferenceIdeal.RefTerm

end
-- ==== Proof.KernelHost.lean ====
/-
  What the host operations before the kernel leave in the arrays the kernel reads.

  Before the kernel is launched the program forms the neighbourhood sums (the same gather and scatter-add, with the
  same index wrap, as the reference: `RefTerm.agg`), transposes each weight matrix and rounds it to half
  precision, and gives each bias vector a leading unit axis.  Each of the five arrays is read off the fold of
  those operations; the neighbourhood sums are kept as the one named term and never opened.
-/
import proofs.«123644_j12524124636045_2_alg».proof.Proof.Gen.KernelIdeal.Frame
import proofs.«123644_j12524124636045_2_alg».proof.Proof.RefTerm
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
  Idealize.ShloMosaic.StableHlo

variable {F : FTy → Type} [FloatOps F]
variable (m : (ℓ : Loc nD τ sig) → Buf (Elt F) ℓ)

attribute [local irreducible] Host.gather Host.scatterAdd in
/-- The kernel's second operand is the neighbourhood sums of the launch arrays. -/
theorem V_main_v9 (c : Dev nD) :
    (V m c main_v9 : S50000x128.Idx → Elt F .f32)
      = Cert.ReferenceIdeal.RefTerm.agg (m ((c : Thread nD τ).loc main_arg0)) (m ((c : Thread nD τ).loc main_arg5))
          (m ((c : Thread nD τ).loc main_arg6)) := by
  dsimp only [Gen.V, Gen.hostOps0]; after_results; rfl

/-- Its third operand is the first weight matrix transposed (and rounded). -/
theorem V_main_v11 (c : Dev nD) :
    (V m c main_v11 : S128x128.Idx → Elt F .bf16)
      = truncf .bf16 (transpose S128x128 [1, 0] (m ((c : Thread nD τ).loc main_arg1)) transposes_S128x128_S128x128_1_0)
          bitsLt_bf16_f32 := by
  dsimp only [Gen.V, Gen.hostOps0]; after_results

/-- Its fifth operand is the second weight matrix transposed (and rounded). -/
theorem V_main_v13 (c : Dev nD) :
    (V m c main_v13 : S128x128.Idx → Elt F .bf16)
      = truncf .bf16 (transpose S128x128 [1, 0] (m ((c : Thread nD τ).loc main_arg3)) transposes_S128x128_S128x128_1_0)
          bitsLt_bf16_f32 := by
  dsimp only [Gen.V, Gen.hostOps0]; after_results

/-- Its fourth operand is the first bias vector as one row. -/
theorem V_main_v14 (c : Dev nD) :
    (V m c main_v14 : S1x128.Idx → Elt F .f32)
      = shapeCast S1x128 (m ((c : Thread nD τ).loc main_arg2)) shapeCasts_S128_S1x128 := by
  dsimp only [Gen.V, Gen.hostOps0]; after_results; rfl

/-- Its sixth operand is the second bias vector as one row. -/
theorem V_main_v15 (c : Dev nD) :
    (V m c main_v15 : S1x128.Idx → Elt F .f32)
      = shapeCast S1x128 (m ((c : Thread nD τ).loc main_arg4)) shapeCasts_S128_S1x128 := by
  dsimp only [Gen.V, Gen.hostOps0]; after_results; rfl

end Cert.KernelIdeal.HostPrefix

end
-- ==== Proof.KernelArray.lean ====
/-
  From the kernel's blocks to its whole result array.

  The grid has ten points; point `t` reads rows `5000 t … 5000 t + 4999` of the features and of the neighbourhood
  sums, the whole of the two transposed weight matrices and of the two bias rows, and writes the same rows of the
  result.  By the body's stored value, entry `(p, q)` of the block written at `t` is the layer's entry of row
  `5000 t + p` and column `q` of the arrays as the kernel finds them; so what each point writes is a block of ONE
  function of the array index, the ten blocks cover the 50000 rows, and the array ends holding that function.  Read
  through the host operations before the launch (the transposes, the unit axis given to the biases), it is
  `entryAt` of the launch arrays and the neighbourhood sums.
-/
import proofs.«123644_j12524124636045_2_alg».proof.Proof.Gen.KernelIdeal.Value
import proofs.«123644_j12524124636045_2_alg».proof.Proof.KernelEntry
import proofs.«123644_j12524124636045_2_alg».proof.Proof.KernelHost

noncomputable section

open scoped BigOperators

namespace Cert.KernelIdeal.Whole

open Cert.KernelIdeal Cert.KernelIdeal.Gen Idealize.ShloMosaic Idealize.ShloMosaic.TcCoe Idealize.SL.Sem
  Idealize.ShloMosaic.ValueIdx Cert.NodeLayer
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The layer's entry at row `r`, column `q`, of the arrays as the kernel finds them: the weight matrices already
    transposed, the biases already rows. -/
def rowEntry (H xe : S50000x128.Idx → EReal) (w1t w2t : S128x128.Idx → EReal) (b1r b2r : S1x128.Idx → EReal)
    (r : Fin 50000) (q : Fin 128) : EReal :=
  entry (fun k => H (ix2 r k)) (fun k => xe (ix2 r k)) (fun k => w1t (ix2 k q)) (fun k => w2t (ix2 k q))
    (b1r (ix2 (0 : Fin 1) q)) (b2r (ix2 (0 : Fin 1) q))

/-- The same as a function of the array index. -/
def wholeFn (H xe : S50000x128.Idx → EReal) (w1t w2t : S128x128.Idx → EReal) (b1r b2r : S1x128.Idx → EReal) :
    S50000x128.Idx → EReal :=
  fun i => rowEntry H xe w1t w2t b1r b2r (i 0) (i 1)

/-- The index maps over the grid: the two row-blocked inputs move with the output, whose block index is the point's
    number; the other four inputs stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 ∧ t.val < 10 :=
  (by decide +kernel : ∀ t : Fin grid0.N, _)

/-- Every block index of the ten is some point's. -/
theorem idx_onto : ∀ b : Fin 10, ∃ t : Fin cfg0.N, win0_6.index t = ![b.val, 0] :=
  (by decide +kernel : ∀ b : Fin 10, ∃ t : Fin grid0.N, win0_6.index t = ![b.val, 0])

/-- A block of any array, read through a window at point `t`, reads the array at the block's indices (the array a
    variable: nothing of its contents is looked at). -/
theorem read_out (t : Fin cfg0.N) (A : S50000x128.Idx → EReal) (y : S5000x128.Idx) :
    ((cfg0.win 6).blk t).view.read (Elt Ideal) A y = A (((cfg0.win 6).blk t).view.emb y) := rfl
theorem read_in0 (t : Fin cfg0.N) (A : S50000x128.Idx → EReal) (y : S5000x128.Idx) :
    ((cfg0.win 0).blk t).view.read (Elt Ideal) A y = A (((cfg0.win 0).blk t).view.emb y) := rfl
theorem read_in1 (t : Fin cfg0.N) (A : S50000x128.Idx → EReal) (y : S5000x128.Idx) :
    ((cfg0.win 1).blk t).view.read (Elt Ideal) A y = A (((cfg0.win 1).blk t).view.emb y) := rfl
theorem read_in2 (t : Fin cfg0.N) (A : S128x128.Idx → EReal) (y : S128x128.Idx) :
    ((cfg0.win 2).blk t).view.read (Elt Ideal) A y = A (((cfg0.win 2).blk t).view.emb y) := rfl
theorem read_in3 (t : Fin cfg0.N) (A : S1x128.Idx → EReal) (y : S1x128.Idx) :
    ((cfg0.win 3).blk t).view.read (Elt Ideal) A y = A (((cfg0.win 3).blk t).view.emb y) := rfl
theorem read_in4 (t : Fin cfg0.N) (A : S128x128.Idx → EReal) (y : S128x128.Idx) :
    ((cfg0.win 4).blk t).view.read (Elt Ideal) A y = A (((cfg0.win 4).blk t).view.emb y) := rfl
theorem read_in5 (t : Fin cfg0.N) (A : S1x128.Idx → EReal) (y : S1x128.Idx) :
    ((cfg0.win 5).blk t).view.read (Elt Ideal) A y = A (((cfg0.win 5).blk t).view.emb y) := rfl

/-- Each input window's block at point `t` reads the array the kernel finds at the block's indices. -/
theorem iblk0_apply (c : Dev nD) (t : Fin cfg0.N) (y : S5000x128.Idx) :
    iblk m c 0 t y = V m c main_arg0 (((cfg0.win 0).blk t).view.emb y) := by
  unfold iblk; exact read_in0 t _ y
theorem iblk1_apply (c : Dev nD) (t : Fin cfg0.N) (y : S5000x128.Idx) :
    iblk m c 1 t y = V m c main_v9 (((cfg0.win 1).blk t).view.emb y) := by
  unfold iblk; exact read_in1 t _ y
theorem iblk2_apply (c : Dev nD) (t : Fin cfg0.N) (y : S128x128.Idx) :
    iblk m c 2 t y = V m c main_v11 (((cfg0.win 2).blk t).view.emb y) := by
  unfold iblk; exact read_in2 t _ y
theorem iblk3_apply (c : Dev nD) (t : Fin cfg0.N) (y : S1x128.Idx) :
    iblk m c 3 t y = V m c main_v14 (((cfg0.win 3).blk t).view.emb y) := by
  unfold iblk; exact read_in3 t _ y
theorem iblk4_apply (c : Dev nD) (t : Fin cfg0.N) (y : S128x128.Idx) :
    iblk m c 4 t y = V m c main_v13 (((cfg0.win 4).blk t).view.emb y) := by
  unfold iblk; exact read_in4 t _ y
theorem iblk5_apply (c : Dev nD) (t : Fin cfg0.N) (y : S1x128.Idx) :
    iblk m c 5 t y = V m c main_v15 (((cfg0.win 5).blk t).view.emb y) := by
  unfold iblk; exact read_in5 t _ y

/-- What point `t` writes back is block `t` of `wholeFn` of the arrays as the kernel finds them. -/
theorem flushed_eq (c : Dev nD) (t : Fin cfg0.N) :
    (dats m 0 c).flushed 6 t = ((cfg0.win 6).blk t).view.read (Elt Ideal)
      (wholeFn (V m c main_v9) (V m c main_arg0) (V m c main_v11) (V m c main_v13) (V m c main_v14) (V m c main_v15)) := by
  rw [Value.flushed6]
  unfold out0_6
  rw [View.canon_unit_zero zero_offsets]
  simp only [View.ld_unit_zero (S := S5000x128) zero_offsets, View.ld_unit_zero (S := S128x128) zero_offsets,
    View.ld_unit_zero (S := S1x128) zero_offsets]
  obtain ⟨e00, e01, e10, e11, e20, e21, e30, e31, e40, e41, e50, e51, e60, e61, ht⟩ := idx_facts t
  funext j
  have hj0 : (j 0).val < 5000 := (j 0).isLt
  have hj1 : (j 1).val < 128 := (j 1).isLt
  rw [read_out]
  unfold wholeFn rowEntry
  refine Entry.pay_at (iblk m c 0 t) (iblk m c 1 t) (iblk m c 2 t) (iblk m c 4 t) (iblk m c 3 t) (iblk m c 5 t)
    _ _ _ _ _ _ ((cfg0.win 6).xinj (grid0.coords t) j) ?_ ?_ ?_ ?_ ?_ ?_
  · intro k
    have hk : k.val < 128 := k.isLt
    rw [iblk1_apply]
    refine congrArg _ (funext fun a => Fin.ext ?_)
    match a with
    | ⟨0, _⟩ => show win0_1.index t (0 : Fin 2) * 5000 + 1 * (j 0).val = win0_6.index t (0 : Fin 2) * 5000 + 1 * (j 0).val; omega
    | ⟨1, _⟩ => show win0_1.index t (1 : Fin 2) * 128 + 1 * k.val = k.val; omega
  · intro k
    have hk : k.val < 128 := k.isLt
    rw [iblk0_apply]
    refine congrArg _ (funext fun a => Fin.ext ?_)
    match a with
    | ⟨0, _⟩ => show win0_0.index t (0 : Fin 2) * 5000 + 1 * (j 0).val = win0_6.index t (0 : Fin 2) * 5000 + 1 * (j 0).val; omega
    | ⟨1, _⟩ => show win0_0.index t (1 : Fin 2) * 128 + 1 * k.val = k.val; omega
  · intro k
    have hk : k.val < 128 := k.isLt
    rw [iblk2_apply]
    refine congrArg _ (funext fun a => Fin.ext ?_)
    match a with
    | ⟨0, _⟩ => show win0_2.index t (0 : Fin 2) * 128 + 1 * k.val = k.val; omega
    | ⟨1, _⟩ => show win0_2.index t (1 : Fin 2) * 128 + 1 * (j 1).val = win0_6.index t (1 : Fin 2) * 128 + 1 * (j 1).val; omega
  · intro k
    have hk : k.val < 128 := k.isLt
    rw [iblk4_apply]
    refine congrArg _ (funext fun a => Fin.ext ?_)
    match a with
    | ⟨0, _⟩ => show win0_4.index t (0 : Fin 2) * 128 + 1 * k.val = k.val; omega
    | ⟨1, _⟩ => show win0_4.index t (1 : Fin 2) * 128 + 1 * (j 1).val = win0_6.index t (1 : Fin 2) * 128 + 1 * (j 1).val; omega
  · rw [iblk3_apply]
    refine congrArg _ (funext fun a => Fin.ext ?_)
    match a with
    | ⟨0, _⟩ => show win0_3.index t (0 : Fin 2) * 1 + 1 * 0 = 0; omega
    | ⟨1, _⟩ => show win0_3.index t (1 : Fin 2) * 128 + 1 * (j 1).val = win0_6.index t (1 : Fin 2) * 128 + 1 * (j 1).val; omega
  · rw [iblk5_apply]
    refine congrArg _ (funext fun a => Fin.ext ?_)
    match a with
    | ⟨0, _⟩ => show win0_5.index t (0 : Fin 2) * 1 + 1 * 0 = 0; omega
    | ⟨1, _⟩ => show win0_5.index t (1 : Fin 2) * 128 + 1 * (j 1).val = win0_6.index t (1 : Fin 2) * 128 + 1 * (j 1).val; omega

/-- An index of the array is in point `t`'s block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v16).slice (win0_6.rect t)).set ↔ _
  rw [View.set_slice_whole, Rect.mem_set_unit]
  exact Iff.rfl

/-- The ten blocks cover the array: row `r` is in the block of point `r / 5000`. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  obtain ⟨t, ht⟩ := idx_onto ⟨(i 0).val / 5000, by omega⟩
  have q0 : win0_6.index t (0 : Fin 2) = (i 0).val / 5000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- The result array after the run is `wholeFn` of the arrays as the kernel finds them. -/
theorem final_blocks (c : Dev nD) :
    (dats m 0 c).arrAt 6 cfg0.N
      = wholeFn (V m c main_v9) (V m c main_arg0) (V m c main_v11) (V m c main_v13) (V m c main_v14) (V m c main_v15) :=
  (dats m 0 c).arrAt_eq_of_cover 6 _ (fun t _ => flushed_eq m c t) (cover)

/-- The transposed first weight matrix as the kernel finds it, read at an entry. -/
theorem w1t_apply (c : Dev nD) (k q : Fin 128) :
    V m c main_v11 (ix2 k q) = m ((c : Thread nD τ).loc main_arg1) (ix2 q k) := by
  rw [HostPrefix.V_main_v11 m c]
  exact transpose_ix2_apply _ _ k q

/-- The transposed second weight matrix as the kernel finds it, read at an entry. -/
theorem w2t_apply (c : Dev nD) (k q : Fin 128) :
    V m c main_v13 (ix2 k q) = m ((c : Thread nD τ).loc main_arg3) (ix2 q k) := by
  rw [HostPrefix.V_main_v13 m c]
  exact transpose_ix2_apply _ _ k q

/-- The first bias row as the kernel finds it, read at an entry. -/
theorem b1r_apply (c : Dev nD) (q : Fin 128) :
    V m c main_v14 (ix2 (0 : Fin 1) q) = m ((c : Thread nD τ).loc main_arg2) (ix1 q) := by
  rw [HostPrefix.V_main_v14 m c]
  exact shapeCast_a_1a_apply _ _ 0 q

/-- The second bias row as the kernel finds it, read at an entry. -/
theorem b2r_apply (c : Dev nD) (q : Fin 128) :
    V m c main_v15 (ix2 (0 : Fin 1) q) = m ((c : Thread nD τ).loc main_arg4) (ix1 q) := by
  rw [HostPrefix.V_main_v15 m c]
  exact shapeCast_a_1a_apply _ _ 0 q

/-- Read through the host operations before the launch, it is the layer's entry of the launch arrays and the
    neighbourhood sums, at every node and column. -/
theorem final (c : Dev nD) :
    (dats m 0 c).arrAt 6 cfg0.N
      = fun i => entryAt (V m c main_v9) (m ((c : Thread nD τ).loc main_arg0)) (m ((c : Thread nD τ).loc main_arg1))
          (m ((c : Thread nD τ).loc main_arg2)) (m ((c : Thread nD τ).loc main_arg3)) (m ((c : Thread nD τ).loc main_arg4))
          (i 0) (i 1) := by
  rw [final_blocks]
  funext i
  obtain ⟨r, q, rfl⟩ : ∃ (r : Fin 50000) (q : Fin 128), i = ix2 r q := ⟨i 0, i 1, eq_ix2 i⟩
  show rowEntry (V m c main_v9) (V m c main_arg0) (V m c main_v11) (V m c main_v13) (V m c main_v14) (V m c main_v15) r q
    = entryAt (V m c main_v9) (m ((c : Thread nD τ).loc main_arg0)) (m ((c : Thread nD τ).loc main_arg1))
        (m ((c : Thread nD τ).loc main_arg2)) (m ((c : Thread nD τ).loc main_arg3)) (m ((c : Thread nD τ).loc main_arg4)) r q
  unfold rowEntry entryAt
  have e1 : (fun k : Fin 128 => V m c main_v11 (ix2 k q)) = fun k => m ((c : Thread nD τ).loc main_arg1) (ix2 q k) :=
    funext fun k => w1t_apply m c k q
  have e2 : (fun k : Fin 128 => V m c main_v13 (ix2 k q)) = fun k => m ((c : Thread nD τ).loc main_arg3) (ix2 q k) :=
    funext fun k => w2t_apply m c k q
  rw [V_main_arg0 m c, e1, e2, b1r_apply m c q, b2r_apply m c q]

/-- The kernel's run: the result array at the layer's entries, the arguments unchanged. -/
theorem run : θ_run defs (onTc (τ := τ) (main (F := Ideal))) ⟨m, fun _ => 0, ρ⟩ fun r => ∀ c : Dev nD,
      r.2.mem ((c : Thread nD τ).loc main_v16)
        = (fun i => entryAt (V m c main_v9) (m ((c : Thread nD τ).loc main_arg0)) (m ((c : Thread nD τ).loc main_arg1))
            (m ((c : Thread nD τ).loc main_arg2)) (m ((c : Thread nD τ).loc main_arg3)) (m ((c : Thread nD τ).loc main_arg4))
            (i 0) (i 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Whole

end
-- ==== Proof.RefRun.lean ====
/-
  The reference program's run.

  The reference is a straight line of 41 array operations once its two calls of the leaky unit (each six
  operations and the one selection of the function it calls in turn) are written out at the call sites.  Listed in
  order, the program is the sequence of that list; every execution of it terminates, and a buffer's final contents
  are the fold of the operations' results over the launch contents.  At the result buffer that fold is the
  composition `RefTerm.out` of the seven argument arrays, by unfolding alone: each operation writes one buffer
  of its own, so the fold at a buffer is its operation's function of the folds at its operands.  The argument
  buffers are written by no operation and end as they began.
-/
import proofs.«123644_j12524124636045_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's 41 operations in order, the two calls of the leaky unit written out: the 19 up to the slope
    constant, the first call's seven (the zero, its repetition, the comparison, the slope converted to its own
    type, its repetition, the product, the selection), the second branch's seven and its slope constant, the
    second call's seven, and the final sum. -/
abbrev ops : List (HloOp τ sig (Elt F)) :=
  [ nullary main_c (constantI S_ 32 0#32),
    unary main_c main_v0 (broadcastInDim S1600000 ![] bcast_S_S1600000 : (⟨S_, .i32⟩ : BufTy).Contents (Elt F) → (⟨S1600000, .i32⟩ : BufTy).Contents (Elt F)),
    binary main_arg5 main_v0 main_v1 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v2 (broadcastInDim S1600000 ![] bcast_S_S1600000 : (⟨S_, .i32⟩ : BufTy).Contents (Elt F) → (⟨S1600000, .i32⟩ : BufTy).Contents (Elt F)),
    binary main_arg5 main_v2 main_v3 (addi : (⟨S1600000, .i32⟩ : BufTy).Contents (Elt F) → (⟨S1600000, .i32⟩ : BufTy).Contents (Elt F) → (⟨S1600000, .i32⟩ : BufTy).Contents (Elt F)),
    ternary main_v1 main_v3 main_arg5 main_v4 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v4 main_v5 (broadcastInDim S1600000x1 ![0] bcast_S1600000_S1600000x1_0 : (⟨S1600000, .i32⟩ : BufTy).Contents (Elt F) → (⟨S1600000x1, .i32⟩ : BufTy).Contents (Elt F)),
    binary main_arg0 main_v5 main_v6 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    nullary main_cst (constant S_ .f32 0x00000000#32),
    unary main_cst main_v7 (broadcastInDim S50000x128 ![] bcast_S_S50000x128 : (⟨S_, .f32⟩ : BufTy).Contents (Elt F) → (⟨S50000x128, .f32⟩ : BufTy).Contents (Elt F)),
    unary main_arg6 main_v8 (broadcastInDim S1600000x1 ![0] bcast_S1600000_S1600000x1_0 : (⟨S1600000, .i32⟩ : BufTy).Contents (Elt F) → (⟨S1600000x1, .i32⟩ : BufTy).Contents (Elt F)),
    ternary main_v7 main_v8 main_v6 main_v9 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    unary main_arg1 main_v10 ((transpose S128x128 [1, 0] · transposes_S128x128_S128x128_1_0) : (⟨S128x128, .f32⟩ : BufTy).Contents (Elt F) → (⟨S128x128, .f32⟩ : BufTy).Contents (Elt F)),
    binary main_v9 main_v10 main_v11 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg2 main_v12 (broadcastInDim S1x128 ![1] bcast_S128_S1x128_1 : (⟨S128, .f32⟩ : BufTy).Contents (Elt F) → (⟨S1x128, .f32⟩ : BufTy).Contents (Elt F)),
    unary main_v12 main_v13 (broadcastInDim S50000x128 ![0, 1] bcast_S1x128_S50000x128_0_1 : (⟨S1x128, .f32⟩ : BufTy).Contents (Elt F) → (⟨S50000x128, .f32⟩ : BufTy).Contents (Elt F)),
    binary main_v11 main_v13 main_v14 (addf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x3C23D70A#32),
    TRef.nullary main_call0.cst (constant S_ .f32 0x00000000#32),
    TRef.unary main_call0.cst main_call0.v0 (broadcastInDim S50000x128 ![] bcast_S_S50000x128),
    TRef.binary (.of main_v14 : TRef sig ⟨S50000x128, .f32⟩) main_call0.v0 main_call0.v1 (cmpf .oge),
    TRef.unary (.of main_cst_1 : TRef sig ⟨S_, .f32⟩) main_call0.v2 id,
    TRef.unary main_call0.v2 main_call0.v3 (broadcastInDim S50000x128 ![] bcast_S_S50000x128),
    TRef.binary main_call0.v3 (.of main_v14 : TRef sig ⟨S50000x128, .f32⟩) main_call0.v4 mulf,
    TRef.ternary main_call0.v1 (.of main_v14 : TRef sig ⟨S50000x128, .f32⟩) main_call0.v4 main_call0.call0.v0 select,
    binary main_arg0 main_v9 main_v16 (mulf : (⟨S50000x128, .f32⟩ : BufTy).Contents (Elt F) → (⟨S50000x128, .f32⟩ : BufTy).Contents (Elt F) → (⟨S50000x128, .f32⟩ : BufTy).Contents (Elt F)),
    unary main_arg3 main_v17 ((transpose S128x128 [1, 0] · transposes_S128x128_S128x128_1_0) : (⟨S128x128, .f32⟩ : BufTy).Contents (Elt F) → (⟨S128x128, .f32⟩ : BufTy).Contents (Elt F)),
    binary main_v16 main_v17 main_v18 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v19 (broadcastInDim S1x128 ![1] bcast_S128_S1x128_1 : (⟨S128, .f32⟩ : BufTy).Contents (Elt F) → (⟨S1x128, .f32⟩ : BufTy).Contents (Elt F)),
    unary main_v19 main_v20 (broadcastInDim S50000x128 ![0, 1] bcast_S1x128_S50000x128_0_1 : (⟨S1x128, .f32⟩ : BufTy).Contents (Elt F) → (⟨S50000x128, .f32⟩ : BufTy).Contents (Elt F)),
    binary main_v18 main_v20 main_v21 (addf : (⟨S50000x128, .f32⟩ : BufTy).Contents (Elt F) → (⟨S50000x128, .f32⟩ : BufTy).Contents (Elt F) → (⟨S50000x128, .f32⟩ : BufTy).Contents (Elt F)),
    nullary main_cst_2 (constant S_ .f32 0x3C23D70A#32),
    TRef.nullary main_call1.cst (constant S_ .f32 0x00000000#32),
    TRef.unary main_call1.cst main_call1.v0 (broadcastInDim S50000x128 ![] bcast_S_S50000x128),
    TRef.binary (.of main_v21 : TRef sig ⟨S50000x128, .f32⟩) main_call1.v0 main_call1.v1 (cmpf .oge),
    TRef.unary (.of main_cst_2 : TRef sig ⟨S_, .f32⟩) main_call1.v2 id,
    TRef.unary main_call1.v2 main_call1.v3 (broadcastInDim S50000x128 ![] bcast_S_S50000x128),
    TRef.binary main_call1.v3 (.of main_v21 : TRef sig ⟨S50000x128, .f32⟩) main_call1.v4 mulf,
    TRef.ternary main_call1.v1 (.of main_v21 : TRef sig ⟨S50000x128, .f32⟩) main_call1.v4 main_call1.call0.v0 select,
    binary main_v15 main_v22 main_v23 (addf : (⟨S50000x128, .f32⟩ : BufTy).Contents (Elt F) → (⟨S50000x128, .f32⟩ : BufTy).Contents (Elt F) → (⟨S50000x128, .f32⟩ : BufTy).Contents (Elt F)) ]

/-- The program is that straight line: the two functions unfolded at their calls and the call records at their
    fields, both sides are one chain of steps once sequencing is re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub ..⟩

attribute [local irreducible] Host.gather Host.scatterAdd in
/-- The fold at the result buffer is the composition `RefTerm.out` of the argument arrays: each operation's result
    at its own buffer is its function of its operands' contents and at any other buffer what was there, and the
    composed term is `RefTerm.out` with its definitions unfolded.  The gather and the scatter-add stay folded
    meanwhile: the equation never looks inside them. -/
theorem out_eq (V : Valuation τ sig (Elt F)) :
    after ops V (main_v23 : DevRef τ sig)
      = RefTerm.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  after_results_simp
  rfl

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

/-- On every device, for any float values, from any memory with zero counters: every weakly fair execution of the
    reference terminates with the result buffer at `RefTerm.out` of the argument arrays' launch contents and the
    seven argument buffers unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v23)
          = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v23).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _)⟩)
    (run_seq scopedRefs_eq scopedSems_eq defs main (fun _ => ops) main_eq (fun _ => ops_sub) m ρ)

end Cert.ReferenceIdeal.RefRun

end
-- ==== Proof.RefEntry.lean ====
/-
  The reference's result at one entry.

  Each branch of the reference is a product of a [50000,128] array with the TRANSPOSE of a weight matrix, plus the
  bias vector repeated down the rows: at node `r` and column `q` that is `Σₖ l(r,k) · w(q,k) + b(q)`.  The leaky
  unit and the final sum act entry by entry.  So, from any array `h` of neighbourhood sums, the result at `(r, q)`
  is the layer's entry `entryAt h … r q`.
-/
import proofs.«123644_j12524124636045_2_alg».proof.Proof.RefTerm
import proofs.«123644_j12524124636045_2_alg».proof.Proof.Spec
import Idealize.ShloMosaic.Lib.StackMember
import Idealize.ShloMosaic.Lib.KernelVsHost
import Idealize.ShloMosaic.Lib.ValueLayout
import Idealize.ShloMosaic.Lib.Pipeline.Value

noncomputable section

open scoped BigOperators

namespace Cert.ReferenceIdeal.RefEntry

open Cert.ReferenceIdeal Cert.ReferenceIdeal.Gen Idealize.ShloMosaic Idealize.ShloMosaic.ValueIdx
  Idealize.ShloMosaic.StackMember Cert.NodeLayer Cert.ReferenceIdeal.RefTerm

/-- The host's leaky unit read at an index. -/
theorem leaky_apply (s : S50000x128.Idx → EReal) (i : S50000x128.Idx) : leaky (F := Ideal) s i = leakyS (s i) := rfl

/-- A product with the plain dimension numbers, read at an entry. -/
theorem dot_apply (D : DotDims ⟨2, ![50000, 128]⟩ ⟨2, ![128, 128]⟩ ⟨2, ![50000, 128]⟩)
    (hD : D = DotDims.plain 50000 128 128) (l : FVec Ideal ⟨2, ![50000, 128]⟩ .f32) (w : FVec Ideal ⟨2, ![128, 128]⟩ .f32)
    (r : Fin 50000) (q : Fin 128) :
    Host.dotGeneral D none l w (ix2 r q) = ∑ k : Fin 128, l (ix2 r k) * w (ix2 k q) := by
  subst hD
  exact dotGeneral_plain_apply none l w r q

/-- A bias vector given a leading unit axis by `broadcast_in_dim`, read at `(0, q)`. -/
theorem biasRow_apply (b : S128.Idx → EReal) (q : Fin 128) :
    broadcastInDim S1x128 ![1] bcast_S128_S1x128_1 b (ix2 (0 : Fin 1) q) = b (ix1 q) :=
  broadcastInDim_apply ![1] bcast_S128_S1x128_1 b (ix2 (0 : Fin 1) q) (ix1 q) fun a =>
    match a with
    | ⟨0, _⟩ => by
      show q.val = if (128 : ℕ) = 1 then 0 else q.val
      simp

/-- One branch before its leaky unit, at node `r` and column `q`. -/
theorem affine_apply (l : S50000x128.Idx → EReal) (w : S128x128.Idx → EReal) (b : S128.Idx → EReal)
    (r : Fin 50000) (q : Fin 128) :
    affine (F := Ideal) l w b (ix2 r q) = ∑ k : Fin 128, l (ix2 r k) * w (ix2 q k) + b (ix1 q) := by
  unfold affine
  rw [addf_apply, broadcastInDim_oneRow_apply, biasRow_apply,
    dot_apply dot_S50000x128_S128x128_S50000x128_1_0_0_1_n_n rfl]
  refine congrArg (· + b (ix1 q)) (Finset.sum_congr rfl fun k _ => ?_)
  exact congrArg (l (ix2 r k) * ·) (transpose_ix2_apply w transposes_S128x128_S128x128_1_0 k q)

/-- The reference's result from neighbourhood sums `h`, at node `r` and column `q`, is the layer's entry. -/
theorem outOf_apply (h xe : S50000x128.Idx → EReal) (w1 : S128x128.Idx → EReal) (b1 : S128.Idx → EReal)
    (w2 : S128x128.Idx → EReal) (b2 : S128.Idx → EReal) (r : Fin 50000) (q : Fin 128) :
    outOf (F := Ideal) h xe w1 b1 w2 b2 (ix2 r q) = entryAt h xe w1 b1 w2 b2 r q := by
  unfold outOf entryAt entry
  rw [addf_apply, leaky_apply, leaky_apply, affine_apply, affine_apply]
  simp only [mulf_apply]

end Cert.ReferenceIdeal.RefEntry

end
-- ==== Proof.lean ====
/-
  A graph layer with neighbourhood aggregation: the kernel against its reference, on the extended reals.

  Both programs first form the neighbourhood sums `H` of the node features `xe` along the edge lists (row `v` of
  `H` is the sum of the rows `xe[src e]` over the edges with `dst e = v`), by the same gather and scatter-add on the
  host.  Both then compute, for node `r` and column `q`,

      leaky (Σₖ H(r,k) · W1(q,k) + b1(q)) + leaky (Σₖ (xe(r,k) · H(r,k)) · W2(q,k) + b2(q)),

  `leaky s = s` for `s ≥ 0` and `c · s` otherwise.  The reference does it on whole arrays (two matrix products with
  the transposed weights, the biases repeated down the rows).  The kernel does it on ten blocks of 5000 rows, with
  the weights transposed and rounded to half precision beforehand and the products accumulated into zero; at the
  ideal values a change of format is the identity and a product into a zero accumulator is the product, and each
  entry depends on its own row only, so the blocks are blocks of one function of the array index and tile the array.
  The two sides are the same sums term by term: no algebraic law beyond that is used, and the finiteness of the
  inputs is never needed.  The neighbourhood sums enter both sides as one shared term that is never opened.

  The three frames are the kernels' generated runs and the reference's run with the result dropped; the
  idealization rewrote nothing, so there is nothing to preserve.
-/
import proofs.«123644_j12524124636045_2_alg».proof.Defs
import proofs.«123644_j12524124636045_2_alg».proof.Proof.Gen.Kernel
import proofs.«123644_j12524124636045_2_alg».proof.Proof.Gen.Kernel.Skeleton
import proofs.«123644_j12524124636045_2_alg».proof.Proof.Gen.Kernel.Launch
import proofs.«123644_j12524124636045_2_alg».proof.Proof.Gen.Kernel.Points
import proofs.«123644_j12524124636045_2_alg».proof.Proof.Gen.Kernel.Frame
import proofs.«123644_j12524124636045_2_alg».proof.Proof.Gen.KernelIdeal
import proofs.«123644_j12524124636045_2_alg».proof.Proof.Gen.KernelIdeal.Skeleton
import proofs.«123644_j12524124636045_2_alg».proof.Proof.Gen.KernelIdeal.Launch
import proofs.«123644_j12524124636045_2_alg».proof.Proof.Gen.KernelIdeal.Points
import proofs.«123644_j12524124636045_2_alg».proof.Proof.Gen.KernelIdeal.Frame
import proofs.«123644_j12524124636045_2_alg».proof.Proof.Gen.KernelIdeal.Value
import proofs.«123644_j12524124636045_2_alg».proof.Proof.Gen.ReferenceIdeal
import proofs.«123644_j12524124636045_2_alg».proof.Proof.Gen.Pre_finite_inputs
import proofs.«123644_j12524124636045_2_alg».proof.Proof.KernelArray
import proofs.«123644_j12524124636045_2_alg».proof.Proof.RefRun
import proofs.«123644_j12524124636045_2_alg».proof.Proof.RefEntry
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

/-- The reference terminates with its arguments unchanged: its run, the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- From memories agreeing on the arguments both programs end with the layer's entries of the launch arrays and
    the shared neighbourhood sums: the kernel by its blocks, the reference entry by entry of its composed term. -/
theorem algebraic : Cert.algebraic_KernelIdeal_ReferenceIdeal := by
  intro m ρ m' ρ' _ hagree
  refine ⟨fun c => fun i => Cert.NodeLayer.entryAt (Cert.KernelIdeal.Gen.V m c Cert.KernelIdeal.main_v9)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)) (i 0) (i 1),
    Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  obtain ⟨a0, a1, a2, a3, a4, a5, a6⟩ := hagree c
  rw [a0, a1, a2, a3, a4, a5, a6]
  funext i
  obtain ⟨r, q, rfl⟩ : ∃ (r : Fin 50000) (q : Fin 128), i = ix2 r q := ⟨i 0, i 1, eq_ix2 i⟩
  show Cert.ReferenceIdeal.RefTerm.out (F := Ideal)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5))
      (m ((c : Thread Cert.KernelIdeal.nD Cert.KernelIdeal.τ).loc Cert.KernelIdeal.main_arg6)) (ix2 r q)
    = Cert.NodeLayer.entryAt (Cert.KernelIdeal.Gen.V m c Cert.KernelIdeal.main_v9)
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4)) r q
  rw [Cert.KernelIdeal.HostPrefix.V_main_v9 m c]
  exact Cert.ReferenceIdeal.RefEntry.outOf_apply _ _ _ _ _ _ r q

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
